-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel

variable [Facts]

def fn {F : FTy → Type} [FloatOps F] (main_arg0 : FVec F S32x1024x256 .f32) (main_arg1 : FVec F S32x1024x256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x1024x256 .f32 := Host.absf main_arg1
  let main_cst_0 : FVec F S_ .f32 := constant S_ .f32 0x7F800000#32
  let main_v5 : FVec F S32x1024x256 .f32 := broadcastInDim S32x1024x256 ![] bcast_S_S32x1024x256 main_cst_0
  let main_v6 : IVec S32x1024x256 1 := cmpf .olt main_v4 main_v5
  let main_c_1 : IVec S_ 1 := constantI S_ 1 1#1
  let main_v7 : IVec S_ 1 := (fun x v => Host.reduce IntOp.andi x v reducesTo_S32x1024x256_S_d0_1_2 h_S_) main_v6 main_c_1
  let main_v8 : IVec S_ 1 := andi main_v3 main_v7
  main_v8
-- ==== Kernel.lean ====
abbrev S32x1024x256 : Shape := ⟨3, ![32, 1024, 256]⟩
abbrev S32x1024x1024 : Shape := ⟨3, ![32, 1024, 1024]⟩
abbrev S1x1024x256 : Shape := ⟨3, ![1, 1024, 256]⟩
abbrev S1x1024x1024 : Shape := ⟨3, ![1, 1024, 1024]⟩
abbrev S1024x256 : Shape := ⟨2, ![1024, 256]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1024x1024, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x1024, .f32⟩
  | .local _ .vmem, ⟨5, _⟩ => ⟨S1x1024x1024, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S32x1024x256.size a
  hwx0_1 : ∀ i : grid0.Coords, EltTy.bits .f32 = 32 ∨ (Rect.block (s := S32x1024x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x1024x1024.size a
  hwx0_2 : ∀ i : grid0.Coords, EltTy.bits .f32 = 32 ∨ (Rect.block (s := S32x1024x1024) S1x1024x1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S_ : Shape := ⟨0, ![]⟩
abbrev S32x1024 : Shape := ⟨2, ![32, 1024]⟩
abbrev S32x1024x1 : Shape := ⟨3, ![32, 1024, 1]⟩
abbrev S32x1024x1024 : Shape := ⟨3, ![32, 1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1024x256, .f32⟩
  | .hbm, ⟨3, _⟩ => ⟨S_, .f32⟩
  | .hbm, ⟨4, _⟩ => ⟨S32x1024, .f32⟩
  | .hbm, ⟨5, _⟩ => ⟨S32x1024x1, .f32⟩
  | .hbm, ⟨6, _⟩ => ⟨S32x1024x1, .f32⟩
  | .hbm, ⟨7, _⟩ => ⟨S_, .f32⟩
  | .hbm, ⟨8, _⟩ => ⟨S32x1024x1, .f32⟩
  | .hbm, ⟨9, _⟩ => ⟨S32x1024x1, .f32⟩
  | .hbm, ⟨10, _⟩ => ⟨S32x1024x256, .f32⟩
  | .hbm, ⟨11, _⟩ => ⟨S32x1024x256, .f32⟩
  | .hbm, ⟨12, _⟩ => ⟨S32x1024x256, .f32⟩
  | .hbm, ⟨13, _⟩ => ⟨S_, .f32⟩
  | .hbm, ⟨14, _⟩ => ⟨S32x1024, .f32⟩
  | .hbm, ⟨15, _⟩ => ⟨S32x1024x1, .f32⟩
  | .hbm, ⟨16, _⟩ => ⟨S32x1024x1, .f32⟩
  | .hbm, ⟨17, _⟩ => ⟨S_, .f32⟩
  | .hbm, ⟨18, _⟩ => ⟨S32x1024x1, .f32⟩
  | .hbm, ⟨19, _⟩ => ⟨S32x1024x1, .f32⟩
  | .hbm, ⟨20, _⟩ => ⟨S32x1024x256, .f32⟩
  | .hbm, ⟨21, _⟩ => ⟨S32x1024x256, .f32⟩
  | .hbm, ⟨22, _⟩ => ⟨S32x1024x1024, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S32x1024x256_S32x1024_d2 : S32x1024x256.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x256_0_1_2 : S32x1024x1.BroadcastsInDim S32x1024x256 (![0, 1, 2] : Fin 3 → Fin S32x1024x256.rank)
  dot_S32x1024x256_S32x1024x256_S32x1024x1024_2_2_1_1_0_0_wf : DotDims.WF S32x1024x256 S32x1024x256 S32x1024x1024 [2] [2] [1] [1] [0] [0]

variable [Facts₀]

def dot_S32x1024x256_S32x1024x256_S32x1024x1024_2_2_1_1_0_0 : DotDims S32x1024x256 S32x1024x256 S32x1024x1024 where
  lhsContracting := [2]
  rhsContracting := [2]
  lhsNonContracting := [1]
  rhsNonContracting := [1]
  lhsBatch := [0]
  rhsBatch := [0]
  wf := dot_S32x1024x256_S32x1024x256_S32x1024x1024_2_2_1_1_0_0_wf

class Facts : Prop extends Facts₀ where

variable [Facts]
-- ==== Proof.CosineSpec.lean ====
/-
  The table of cosine similarities, as one function of the two argument arrays.

  Both arrays hold 32 batches of 1024 rows of 256 extended reals.  A row's norm is the square root of the sum of the
  squares of its entries, kept from below at a small positive constant; a row divided entry by entry by that norm is
  the row "normalized".  Entry (b, t, q) of the table is the sum over the 256 positions of the products of the
  normalized row t of the second array and the normalized row q of the first, both taken in batch b.
-/
import Idealize.ShloMosaic.PureOps.Ideal
import Idealize.ShloMosaic.Lib.ValueIdx

noncomputable section

namespace Cert.Cosine

open Idealize.ShloMosaic Idealize.ShloMosaic.ValueIdx

/-- A row's Euclidean norm, kept from below at the value of the single-precision word nearest to 1e-10. -/
def clampedNorm (u : Fin 256 → EReal) : EReal :=
  max (Ideal.sqrt (∑ k : Fin 256, u k * u k)) (Ideal.ofBits .f32 0x2EDBE6FF#32)

/-- The cosine similarity of two rows: the sum over the positions of the products of the two rows' entries, each
    entry first divided by its own row's clamped norm. -/
def cosine (u v : Fin 256 → EReal) : EReal :=
  ∑ k : Fin 256, Ideal.div (u k) (clampedNorm u) * Ideal.div (v k) (clampedNorm v)

/-- Entry (b, t, q): row t of `x` against row q of `s`, in batch b. -/
def simAt (s x : (⟨3, ![32, 1024, 256]⟩ : Shape).Idx → EReal) (b : Fin 32) (t q : Fin 1024) : EReal :=
  cosine (fun k => x (ix3 b t k)) (fun k => s (ix3 b q k))

/-- The whole table, index by index. -/
def sims (s x : (⟨3, ![32, 1024, 256]⟩ : Shape).Idx → EReal) : (⟨3, ![32, 1024, 1024]⟩ : Shape).Idx → EReal :=
  fun i => simAt s x (i 0) (i 1) (i 2)

theorem sims_ix3 (s x : (⟨3, ![32, 1024, 256]⟩ : Shape).Idx → EReal) (b : Fin 32) (t q : Fin 1024) :
    sims s x (ix3 b t q) = simAt s x b t q := rfl

end Cert.Cosine

end
-- ==== Proof.RefSims.lean ====
/-
  The reference program computes the table of cosine similarities.

  Read one operation at a time: each argument's squares are summed along the last axis, the sum is laid back as a
  column, its square root is taken and kept from below at the small constant, the column is repeated along the row and
  the argument is divided by it entry by entry — the argument with every row normalized.  The last operation contracts
  the two normalized arguments over the last axis, batch by batch: entry (b, t, q) is the sum over the positions of
  the products of normalized row t of the second argument and normalized row q of the first.
-/
import proofs.«149761_j31963146616898_2_alg».proof.Proof.Gen.ReferenceIdeal.Read
import proofs.«149761_j31963146616898_2_alg».proof.Proof.CosineSpec

noncomputable section

namespace Cert.Cosine.Ref

open Cert.ReferenceIdeal Cert.ReferenceIdeal.Read Idealize.ShloMosaic Idealize.ShloMosaic.ValueIdx Cert.Cosine

/-- The second argument with every row divided by its clamped norm, read at (b, r, k). -/
theorem normalized_x (x1 : (⟨S32x1024x256, .f32⟩ : BufTy).Contents (Elt Ideal)) (b : Fin 32) (r : Fin 1024) (k : Fin 256) :
    val_main_v7 (F := Ideal) x1 (ix3 b r k) = Ideal.div (x1 (ix3 b r k)) (clampedNorm fun k' => x1 (ix3 b r k')) := by
  have e : ∀ k' : Fin 256, idx_main_v1 (idx_main_v2 (idx_main_v6 (ix3 b r k))) k' = ix3 b r k' := fun k' =>
    funext fun a => by match a with | ⟨0, _⟩ => rfl | ⟨1, _⟩ => rfl | ⟨2, _⟩ => rfl
  rw [val_main_v7_apply, val_main_v6_apply, val_main_v5_apply, val_main_v3_apply, val_main_v2_apply, val_main_v1_apply,
    val_main_v4_apply, val_main_cst_0_apply, val_main_cst_apply]
  simp only [val_main_v0_apply, e, Ideal.hostDivf_def, Ideal.maximumf_def, Ideal.hostUnary_sqrt_def, Ideal.mulf_def,
    Ideal.ofBits_def, Ideal.ofBits_zero_f32, zero_add]
  rfl

/-- The first argument with every row divided by its clamped norm, read at (b, r, k). -/
theorem normalized_s (x0 : (⟨S32x1024x256, .f32⟩ : BufTy).Contents (Elt Ideal)) (b : Fin 32) (r : Fin 1024) (k : Fin 256) :
    val_main_v15 (F := Ideal) x0 (ix3 b r k) = Ideal.div (x0 (ix3 b r k)) (clampedNorm fun k' => x0 (ix3 b r k')) := by
  have e : ∀ k' : Fin 256, idx_main_v9 (idx_main_v10 (idx_main_v14 (ix3 b r k))) k' = ix3 b r k' := fun k' =>
    funext fun a => by match a with | ⟨0, _⟩ => rfl | ⟨1, _⟩ => rfl | ⟨2, _⟩ => rfl
  rw [val_main_v15_apply, val_main_v14_apply, val_main_v13_apply, val_main_v11_apply, val_main_v10_apply, val_main_v9_apply,
    val_main_v12_apply, val_main_cst_2_apply, val_main_cst_1_apply]
  simp only [val_main_v8_apply, e, Ideal.hostDivf_def, Ideal.maximumf_def, Ideal.hostUnary_sqrt_def, Ideal.mulf_def,
    Ideal.ofBits_def, Ideal.ofBits_zero_f32, zero_add]
  rfl

/-- The reference's result is the table of cosine similarities of its two arguments. -/
theorem result_eq (x0 x1 : (⟨S32x1024x256, .f32⟩ : BufTy).Contents (Elt Ideal)) :
    val_main_v16 (F := Ideal) x0 x1 = sims x0 x1 := by
  funext i
  obtain ⟨b, t, q, rfl⟩ : ∃ (b : Fin 32) (t q : Fin 1024), i = ix3 b t q := ⟨i 0, i 1, i 2, eq_ix3 i⟩
  have el : ∀ k : Fin 256, lidx_main_v16 (ix3 b t q) k = ix3 b t k := fun k =>
    funext fun a => by match a with | ⟨0, _⟩ => rfl | ⟨1, _⟩ => rfl | ⟨2, _⟩ => rfl
  have er : ∀ k : Fin 256, ridx_main_v16 (ix3 b t q) k = ix3 b q k := fun k =>
    funext fun a => by match a with | ⟨0, _⟩ => rfl | ⟨1, _⟩ => rfl | ⟨2, _⟩ => rfl
  rw [val_main_v16_apply, sims_ix3]
  simp only [el, er, normalized_x, normalized_s]
  rfl

end Cert.Cosine.Ref

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.KernelPayload.lean ====
/-
  What the kernel's body stores, read at an index.

  The body loads one batch of each argument as a block of 1024 rows of 256 entries.  For each block it sums the squares
  along every row, takes the square root, keeps it from below at the small constant, and divides the row by the result:
  the block with every row normalized.  The two normalized blocks are then multiplied rows against rows into a zero
  accumulator (the narrowing of the operands to half precision before the product does not change an extended real):
  entry (t, q) of what is stored is the cosine similarity of row t of the second block and row q of the first.
-/
import proofs.«149761_j31963146616898_2_alg».proof.Proof.Gen.KernelIdeal.Skeleton
import proofs.«149761_j31963146616898_2_alg».proof.Proof.LibLayout
import proofs.«149761_j31963146616898_2_alg».proof.Proof.CosineSpec

noncomputable section

namespace Cert.Cosine.Body

open Cert.KernelIdeal Cert.KernelIdeal.Gen Idealize.ShloMosaic Idealize.ShloMosaic.ValueIdx
open Cert.Cosine Cert.LibLayout

/-- A loaded block with every row divided by its clamped norm, spelt as the body spells it. -/
def normalizedRows (x : Vec Ideal S1x1024x256 .f32) : FVec Ideal S1024x256 .f32 :=
  divf (shapeCast S1024x256 x shapeCasts_S1x1024x256_S1024x256)
    (broadcastTo S1024x256
      (maximumf
        (sqrt (shapeCast S1024x1
          (multiReduction .add [1] S1024
            (mulf (shapeCast S1024x256 x shapeCasts_S1x1024x256_S1024x256) (shapeCast S1024x256 x shapeCasts_S1x1024x256_S1024x256))
            0x00000000#32 reduces_S1024x256_S1024 (.inl rfl) rfl)
          shapeCasts_S1024_S1024x1))
        (broadcast S1024x1 (Scalar.ofBits .f32 0x2EDBE6FF#32)))
      broadcasts_S1024x1_S1024x256)

/-- The stored value is the product, rows against rows, of the two normalized blocks, laid under a leading axis of
    extent one. -/
theorem payload_eq (x0 x1 : Vec Ideal S1x1024x256 .f32) :
    k0_pay1 (F := Ideal) x0 x1
      = shapeCast S1x1024x1024
          (matmul dot_S1024x256_S1024x256_S1024x1024_1_1_0_0_n_n none
            (truncf .bf16 (normalizedRows x1) bitsLt_bf16_f32) (truncf .bf16 (normalizedRows x0) bitsLt_bf16_f32)
            (constant S1024x1024 .f32 0x00000000#32))
          shapeCasts_S1024x1024_S1x1024x1024 := rfl

/-- Entry (p, k) of a normalized block: the block's entry divided by the clamped norm of its row. -/
theorem normalizedRows_apply (x : Vec Ideal S1x1024x256 .f32) (p : Fin 1024) (k : Fin 256) :
    normalizedRows x (ix2 p k) = Ideal.div (x (ix3 (0 : Fin 1) p k)) (clampedNorm fun k' => x (ix3 (0 : Fin 1) p k')) := by
  unfold normalizedRows
  refine (divf_apply _ _ _).trans ?_
  refine congrArg₂ Ideal.div (shapeCast_1ab_ab_apply x shapeCasts_S1x1024x256_S1024x256 p k) ?_
  refine (broadcastTo_a1_ab_apply _ broadcasts_S1024x1_S1024x256 p k).trans ?_
  refine (maximumf_apply _ _ _).trans ?_
  refine congrArg₂ max ?_ rfl
  refine congrArg Ideal.sqrt ?_
  refine (shapeCast_a_a1_apply _ shapeCasts_S1024_S1024x1 p (0 : Fin 1)).trans ?_
  refine (sum_rows_apply _ reduces_S1024x256_S1024 (.inl rfl) rfl p).trans ?_
  refine Finset.sum_congr rfl fun k' _ => ?_
  refine (mulf_apply _ _ _).trans ?_
  rw [shapeCast_1ab_ab_apply x shapeCasts_S1x1024x256_S1024x256 p k']

/-- The left operand's free axis is the result's first axis. -/
theorem lhs_row (j : S1024x1024.Idx) (k : dot_S1024x256_S1024x256_S1024x1024_1_1_0_0_n_n.contr.Idx) :
    (dot_S1024x256_S1024x256_S1024x1024_1_1_0_0_n_n.lhsIdx j k 0).val = (j 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl

/-- The right operand's free axis is the result's second axis. -/
theorem rhs_row (j : S1024x1024.Idx) (k : dot_S1024x256_S1024x256_S1024x1024_1_1_0_0_n_n.contr.Idx) :
    (dot_S1024x256_S1024x256_S1024x1024_1_1_0_0_n_n.rhsIdx j k 0).val = (j 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl

/-- Entry (u, p, q) of what the body stores is the cosine similarity of row p of the second loaded block and row q of
    the first. -/
theorem payload_apply (x0 x1 : Vec Ideal S1x1024x256 .f32) (u : Fin 1) (p q : Fin 1024) :
    k0_pay1 (F := Ideal) x0 x1 (ix3 u p q)
      = cosine (fun k => x1 (ix3 (0 : Fin 1) p k)) (fun k => x0 (ix3 (0 : Fin 1) q k)) := by
  rw [payload_eq]
  refine (shapeCast_ab_1ab_apply _ shapeCasts_S1024x1024_S1x1024x1024 u p q).trans ?_
  refine (matmul_rows_rows_apply dot_S1024x256_S1024x256_S1024x1024_1_1_0_0_n_n rfl rfl rfl rfl lhs_row rhs_row none
    (truncf .bf16 (normalizedRows x1) bitsLt_bf16_f32) (truncf .bf16 (normalizedRows x0) bitsLt_bf16_f32) p q).trans ?_
  unfold cosine
  refine Finset.sum_congr rfl fun k _ => ?_
  refine congrArg₂ (· * ·) ?_ ?_
  · exact (truncf_apply (ψ := .bf16) (normalizedRows x1) bitsLt_bf16_f32 (ix2 p k)).trans (normalizedRows_apply x1 p k)
  · exact (truncf_apply (ψ := .bf16) (normalizedRows x0) bitsLt_bf16_f32 (ix2 q k)).trans (normalizedRows_apply x0 q k)

end Cert.Cosine.Body

end
-- ==== Proof.KernelValue.lean ====
/-
  The kernel's result array is the table of cosine similarities of its two argument arrays.

  The grid has 32 points, one per batch.  At point t each window's block is batch t of its array, whole: block index
  (t, 0, 0), so entry (u, p, k) of a block is entry (t, p, k) of the array.  What point t writes back is therefore
  batch t of the table: entry (t, p, q) is the cosine similarity of row p of batch t of the second argument and row q of
  batch t of the first.  The 32 written blocks cover the result array (the block of point t holds every index whose
  first coordinate is t), so after the run the array is the table.
-/
import proofs.«149761_j31963146616898_2_alg».proof.Proof.Gen.KernelIdeal.Value
import proofs.«149761_j31963146616898_2_alg».proof.Proof.KernelPayload
import Idealize.ShloMosaic.Lib.Pipeline.Value

noncomputable section

namespace Cert.Cosine.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Cosine

variable (m : (ℓ : Loc nD τ sig) → Buf (Elt Ideal) ℓ) (ρ : Dev nD → PrngReg)

theorem zero_offsets : (![0, 0, 0] : Fin 3 → Nat) = fun _ => 0 := funext fun a => by fin_cases a <;> rfl

/-- Every window's block at grid point `t` has block index (t, 0, 0): decided over the 32 points. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Entry (u, p, k) of the first argument's block at point `t` is entry (t, p, k) of the first argument. -/
theorem block0_apply (c : Dev nD) (t : Fin cfg0.N) (u : Fin 1) (p : Fin 1024) (k : Fin 256) (i : S32x1024x256.Idx)
    (h0 : (i 0).val = t.val) (h1 : (i 1).val = p.val) (h2 : (i 2).val = k.val) :
    (iblk m c 0 t : Vec Ideal S1x1024x256 .f32) (ix3 u p k) = V m c main_arg0 i := by
  obtain ⟨e0, e1, e2, -⟩ := block_index t
  have hu : u.val < 1 := u.isLt
  unfold iblk
  rw [View.read_apply]
  show V m c main_arg0 _ = V m c main_arg0 i
  refine congrArg (V m c main_arg0) (funext fun a => Fin.ext ?_)
  match a with
  | ⟨0, _⟩ => show win0_0.index t (0 : Fin 3) * 1 + 1 * u.val = (i 0).val; omega
  | ⟨1, _⟩ => show win0_0.index t (1 : Fin 3) * 1024 + 1 * p.val = (i 1).val; omega
  | ⟨2, _⟩ => show win0_0.index t (2 : Fin 3) * 256 + 1 * k.val = (i 2).val; omega

/-- Entry (u, p, k) of the second argument's block at point `t` is entry (t, p, k) of the second argument. -/
theorem block1_apply (c : Dev nD) (t : Fin cfg0.N) (u : Fin 1) (p : Fin 1024) (k : Fin 256) (i : S32x1024x256.Idx)
    (h0 : (i 0).val = t.val) (h1 : (i 1).val = p.val) (h2 : (i 2).val = k.val) :
    (iblk m c 1 t : Vec Ideal S1x1024x256 .f32) (ix3 u p k) = V m c main_arg1 i := by
  obtain ⟨-, -, -, e0, e1, e2, -⟩ := block_index t
  have hu : u.val < 1 := u.isLt
  unfold iblk
  rw [View.read_apply]
  show V m c main_arg1 _ = V m c main_arg1 i
  refine congrArg (V m c main_arg1) (funext fun a => Fin.ext ?_)
  match a with
  | ⟨0, _⟩ => show win0_1.index t (0 : Fin 3) * 1 + 1 * u.val = (i 0).val; omega
  | ⟨1, _⟩ => show win0_1.index t (1 : Fin 3) * 1024 + 1 * p.val = (i 1).val; omega
  | ⟨2, _⟩ => show win0_1.index t (2 : Fin 3) * 256 + 1 * k.val = (i 2).val; omega

/-- What the body stores, at any index of the stored block: the cosine similarity of the row of the second loaded
    block named by the index's second coordinate and the row of the first named by its third. -/
theorem payload_at (x0 x1 : Vec Ideal S1x1024x256 .f32) (y : S1x1024x1024.Idx) :
    k0_pay1 (F := Ideal) x0 x1 y
      = cosine (fun k => x1 (ix3 (0 : Fin 1) (y 1) k)) (fun k => x0 (ix3 (0 : Fin 1) (y 2) k)) :=
  (congrArg (k0_pay1 (F := Ideal) x0 x1) (eq_ix3 y)).trans (Body.payload_apply x0 x1 (y 0) (y 1) (y 2))

/-- What point `t` writes back is block `t` of the table of cosine similarities of the two arguments. -/
theorem flushed_eq (c : Dev nD) (t : Fin cfg0.N) :
    (dats m 0 c).flushed 2 t
      = ((cfg0.win 2).blk t).view.read (Elt Ideal) (sims (V m c main_arg0) (V m c main_arg1)) := by
  rw [flushed2]
  unfold out0_2
  rw [View.canon_unit_zero zero_offsets]
  simp only [View.ld_unit_zero (S := S1x1024x256) zero_offsets]
  obtain ⟨-, -, -, -, -, -, e0, e1, e2⟩ := block_index t
  funext j
  show k0_pay1 (F := Ideal) (iblk m c 0 t) (iblk m c 1 t) j
    = sims (V m c main_arg0) (V m c main_arg1) (((cfg0.win 2).blk t).view.emb j)
  have hj0 : (j 0).val < 1 := (j 0).isLt
  refine (payload_at (iblk m c 0 t) (iblk m c 1 t) j).trans ?_
  unfold sims simAt
  refine congrArg₂ cosine (funext fun k => ?_) (funext fun k => ?_)
  · refine block1_apply m c t (0 : Fin 1) (j 1) k _ ?_ ?_ rfl
    · show win0_2.index t (0 : Fin 3) * 1 + 1 * (j 0).val = t.val; omega
    · show win0_2.index t (1 : Fin 3) * 1024 + 1 * (j 1).val = (j 1).val; omega
  · refine block0_apply m c t (0 : Fin 1) (j 2) k _ ?_ ?_ rfl
    · show win0_2.index t (0 : Fin 3) * 1 + 1 * (j 0).val = t.val; omega
    · show win0_2.index t (2 : Fin 3) * 1024 + 1 * (j 2).val = (j 2).val; omega

/-- An index of the result array is in point `t`'s block iff each coordinate is in the block's range on its axis. -/
theorem mem_block (t : Fin cfg0.N) (i : S32x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- After the run the result array is the table of cosine similarities of the two arguments: every index is in the
    block of the point named by its first coordinate. -/
theorem final (c : Dev nD) :
    (dats m 0 c).arrAt 2 cfg0.N
      = sims (m ((c : Thread nD τ).loc main_arg0)) (m ((c : Thread nD τ).loc main_arg1)) := by
  refine (dats m 0 c).arrAt_eq_of_cover 2 _ (fun t _ => flushed_eq m c t) fun i => ?_
  have hi0 : (i 0).val < 32 := (i 0).isLt
  have hi1 : (i 1).val < 1024 := (i 1).isLt
  have hi2 : (i 2).val < 1024 := (i 2).isLt
  have hN : cfg0.N = 32 := N_0
  obtain ⟨t, ht⟩ : ∃ t : Fin cfg0.N, t.val = (i 0).val := ⟨⟨(i 0).val, by omega⟩, rfl⟩
  obtain ⟨-, -, -, -, -, -, e0, e1, e2⟩ := block_index t
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1024 ≤ (i 2).val ∧ (i 2).val < win0_2.index t (2 : Fin 3) * 1024 + 1024
    omega

/-- The kernel's run, read: the result array ends at the table of cosine similarities of the arguments, and the
    arguments end unchanged. -/
theorem run : θ_run defs (onTc (τ := τ) (main (F := Ideal))) ⟨m, fun _ => 0, ρ⟩ fun r => ∀ c : Dev nD,
      r.2.mem ((c : Thread nD τ).loc main_v0)
        = sims (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Cosine.Kernel

end
-- ==== Proof.lean ====
/-
  Pairwise cosine similarity, a kernel against its plain reference, equal on the extended reals.

  Both programs take two arrays of 32 batches of 1024 rows of 256 numbers.  Each divides every row by its Euclidean
  norm — the square root of the sum of the row's squares, kept from below at the same small constant, written with the
  same single-precision word in both programs — and then takes, batch by batch, the inner product of every normalized
  row of the second array with every normalized row of the first: a table of 32 × 1024 × 1024 similarities.

  The kernel does this one batch per grid point: it loads the batch of each array, normalizes the rows, narrows them
  to half precision (a change of format, which leaves an extended real as it is) and multiplies rows against rows on
  the matrix unit into a zero accumulator; the reference does it with whole-array operations and one batched
  contraction.  Read index by index both are the same sum of 256 products of the same quotients, in the same order:
  no regrouping of a sum and no cancellation is involved, so finiteness of the inputs is never used.

  The three frames are the generated ones (the reference's is its generated run with the result dropped); the
  idealization rewrote nothing, so there is nothing to preserve; the value claim sets the kernel's run (the result
  array is the table: `Cert.Cosine.Kernel.run`) beside the reference's (its result is the table:
  `Cert.Cosine.Ref.result_eq`).
-/
import proofs.«149761_j31963146616898_2_alg».proof.Defs
import proofs.«149761_j31963146616898_2_alg».proof.Proof.Gen.Kernel
import proofs.«149761_j31963146616898_2_alg».proof.Proof.Gen.Kernel.Skeleton
import proofs.«149761_j31963146616898_2_alg».proof.Proof.Gen.Kernel.Launch
import proofs.«149761_j31963146616898_2_alg».proof.Proof.Gen.Kernel.Points
import proofs.«149761_j31963146616898_2_alg».proof.Proof.Gen.Kernel.Frame
import proofs.«149761_j31963146616898_2_alg».proof.Proof.Gen.KernelIdeal
import proofs.«149761_j31963146616898_2_alg».proof.Proof.Gen.KernelIdeal.Skeleton
import proofs.«149761_j31963146616898_2_alg».proof.Proof.Gen.KernelIdeal.Launch
import proofs.«149761_j31963146616898_2_alg».proof.Proof.Gen.KernelIdeal.Points
import proofs.«149761_j31963146616898_2_alg».proof.Proof.Gen.KernelIdeal.Frame
import proofs.«149761_j31963146616898_2_alg».proof.Proof.Gen.ReferenceIdeal
import proofs.«149761_j31963146616898_2_alg».proof.Proof.Gen.KernelIdeal.Value
import proofs.«149761_j31963146616898_2_alg».proof.Proof.Gen.ReferenceIdeal.Run
import proofs.«149761_j31963146616898_2_alg».proof.Proof.Gen.ReferenceIdeal.Read
import proofs.«149761_j31963146616898_2_alg».proof.Proof.Gen.Pre_finite_inputs
import Idealize.ShloMosaic.Adequacy
import Idealize.ShloMosaic.Init
import proofs.«149761_j31963146616898_2_alg».proof.Proof.RefSims
import proofs.«149761_j31963146616898_2_alg».proof.Proof.KernelValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a host program: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite, nothing to state. -/
theorem preserves : Cert.preserves_Kernel_KernelIdeal := trivial

/-- From arguments that agree, the kernel's result array and the reference's both end at the table of cosine
    similarities of the arguments. -/
theorem algebraic : Cert.algebraic_KernelIdeal_ReferenceIdeal := by
  intro m ρ m' ρ' _ hagree
  refine ⟨_, Cert.Cosine.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Cosine.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
